-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x64x512 : Shape := ⟨4, ![16, 16, 64, 512]⟩
abbrev S16x16x64x12 : Shape := ⟨4, ![16, 16, 64, 12]⟩
abbrev S12x512 : Shape := ⟨2, ![12, 512]⟩
abbrev S_ : Shape := ⟨0, ![]⟩

class Facts : Prop where
  bcast_S_S16x16x64x512 : S_.BroadcastsInDim S16x16x64x512 (![] : Fin 0 → Fin S16x16x64x512.rank)
  reducesTo_S16x16x64x512_S_d0_1_2_3 : S16x16x64x512.ReducesTo [0, 1, 2, 3] S_
  h_S_ : 0 < S_.numel
  bcast_S_S16x16x64x12 : S_.BroadcastsInDim S16x16x64x12 (![] : Fin 0 → Fin S16x16x64x12.rank)
  reducesTo_S16x16x64x12_S_d0_1_2_3 : S16x16x64x12.ReducesTo [0, 1, 2, 3] S_
  bcast_S_S12x512 : S_.BroadcastsInDim S12x512 (![] : Fin 0 → Fin S12x512.rank)
  reducesTo_S12x512_S_d0_1 : S12x512.ReducesTo [0, 1] S_

variable [Facts]

def fn {F : FTy → Type} [FloatOps F] (main_arg0 : FVec F S16x16x64x512 .f32) (main_arg1 : FVec F S16x16x64x12 .f32) (main_arg2 : FVec F S12x512 .f32) : IVec S_ 1 :=
  let main_v0 : FVec F S16x16x64x512 .f32 := Host.absf main_arg0
  let main_cst : FVec F S_ .f32 := constant S_ .f32 0x7F800000#32
  let main_v1 : FVec F S16x16x64x512 .f32 := broadcastInDim S16x16x64x512 ![] bcast_S_S16x16x64x512 main_cst
  let main_v2 : IVec S16x16x64x512 1 := cmpf .olt main_v0 main_v1
  let main_c : IVec S_ 1 := constantI S_ 1 1#1
  let main_v3 : IVec S_ 1 := (fun x v => Host.reduce IntOp.andi x v reducesTo_S16x16x64x512_S_d0_1_2_3 h_S_) main_v2 main_c
  let main_v4 : FVec F S16x16x64x12 .f32 := Host.absf main_arg1
  let main_cst_0 : FVec F S_ .f32 := constant S_ .f32 0x7F800000#32
  let main_v5 : FVec F S16x16x64x12 .f32 := broadcastInDim S16x16x64x12 ![] bcast_S_S16x16x64x12 main_cst_0
  let main_v6 : IVec S16x16x64x12 1 := cmpf .olt main_v4 main_v5
  let main_c_1 : IVec S_ 1 := constantI S_ 1 1#1
  let main_v7 : IVec S_ 1 := (fun x v => Host.reduce IntOp.andi x v reducesTo_S16x16x64x12_S_d0_1_2_3 h_S_) main_v6 main_c_1
  let main_v8 : IVec S_ 1 := andi main_v3 main_v7
  let main_v9 : FVec F S12x512 .f32 := Host.absf main_arg2
  let main_cst_2 : FVec F S_ .f32 := constant S_ .f32 0x7F800000#32
  let main_v10 : FVec F S12x512 .f32 := broadcastInDim S12x512 ![] bcast_S_S12x512 main_cst_2
  let main_v11 : IVec S12x512 1 := cmpf .olt main_v9 main_v10
  let main_c_3 : IVec S_ 1 := constantI S_ 1 1#1
  let main_v12 : IVec S_ 1 := (fun x v => Host.reduce IntOp.andi x v reducesTo_S12x512_S_d0_1 h_S_) main_v11 main_c_3
  let main_v13 : IVec S_ 1 := andi main_v8 main_v12
  main_v13
-- ==== Kernel.lean ====
abbrev S16x16x64x512 : Shape := ⟨4, ![16, 16, 64, 512]⟩
abbrev S16x16x64x12 : Shape := ⟨4, ![16, 16, 64, 12]⟩
abbrev S12x512 : Shape := ⟨2, ![12, 512]⟩
abbrev S16x1024x512 : Shape := ⟨3, ![16, 1024, 512]⟩
abbrev S16x1024x12 : Shape := ⟨3, ![16, 1024, 12]⟩
abbrev S16x10x512 : Shape := ⟨3, ![16, 10, 512]⟩
abbrev S1x1024x512 : Shape := ⟨3, ![1, 1024, 512]⟩
abbrev S1x1024x12 : Shape := ⟨3, ![1, 1024, 12]⟩
abbrev S1x10x512 : Shape := ⟨3, ![1, 10, 512]⟩
abbrev S1024x512 : Shape := ⟨2, ![1024, 512]⟩
abbrev S1024x12 : Shape := ⟨2, ![1024, 12]⟩
abbrev S1024 : Shape := ⟨1, ![1024]⟩
abbrev S1024x1 : Shape := ⟨2, ![1024, 1]⟩
abbrev S12 : Shape := ⟨1, ![12]⟩
abbrev S12x1 : Shape := ⟨2, ![12, 1]⟩
abbrev S10x512 : Shape := ⟨2, ![10, 512]⟩
abbrev S10 : Shape := ⟨1, ![10]⟩
abbrev S10x1 : Shape := ⟨2, ![10, 1]⟩
abbrev S16x5120 : Shape := ⟨2, ![16, 5120]⟩

abbrev nBuf : Space → Nat
  | .hbm => 7
  | .vmem => 7
  | .smem => 0
  | _ => 0

abbrev bufTy : (tb : Table) → Fin (tcTables nBuf tb) → BufTy
  | .hbm, ⟨0, _⟩ => ⟨S16x16x64x512, .f32⟩
  | .hbm, ⟨1, _⟩ => ⟨S16x16x64x12, .f32⟩
  | .hbm, ⟨2, _⟩ => ⟨S12x512, .f32⟩
  | .hbm, ⟨3, _⟩ => ⟨S16x1024x512, .f32⟩
  | .hbm, ⟨4, _⟩ => ⟨S16x1024x12, .f32⟩
  | .hbm, ⟨5, _⟩ => ⟨S16x10x512, .f32⟩
  | .hbm, ⟨6, _⟩ => ⟨S16x5120, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x12, .f32⟩
  | .local _ .vmem, ⟨3, _⟩ => ⟨S1x1024x12, .f32⟩
  | .local _ .vmem, ⟨4, _⟩ => ⟨S12x512, .f32⟩
  | .local _ .vmem, ⟨5, _⟩ => ⟨S1x10x512, .f32⟩
  | .local _ .vmem, ⟨6, _⟩ => ⟨S1x10x512, .f32⟩
  | _, _ => ⟨S16x16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x10x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x16x64x512_S16x1024x512 : S16x16x64x512.ShapeCasts S16x1024x512
  shapeCasts_S16x16x64x12_S16x1024x12 : S16x16x64x12.ShapeCasts S16x1024x12
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1024x12_S1x1024x12_0_0_0 : ∀ a, (![0, 0, 0] : Fin 3 → Nat) a + S1x1024x12.size a ≤ S1x1024x12.size a
  h_S1x1024x12 : 0 < S1x1024x12.numel
  shapeCasts_S1x1024x12_S1024x12 : S1x1024x12.ShapeCasts S1024x12
  inb_S12x512_S12x512_0_0 : ∀ a, (![0, 0] : Fin 2 → Nat) a + S12x512.size a ≤ S12x512.size a
  h_S12x512 : 0 < S12x512.numel
  reduces_S1024x12_S1024 : S1024x12.Reduces [1] S1024
  shapeCasts_S1024_S1024x1 : S1024.ShapeCasts S1024x1
  broadcasts_S1024x1_S1024x12 : S1024x1.Broadcasts S1024x12
  bitsLt_bf16_f32 : FTy.bits .bf16 < FTy.bits .f32
  reduces_S1024x12_S12 : S1024x12.Reduces [0] S12
  shapeCasts_S12_S12x1 : S12.ShapeCasts S12x1
  broadcasts_S12x1_S12x512 : S12x1.Broadcasts S12x512
  slices_S12x512_o0_0_S10x512 : S12x512.Slices ![0, 0] S10x512
  reduces_S10x512_S10 : S10x512.Reduces [1] S10
  shapeCasts_S10_S10x1 : S10.ShapeCasts S10x1
  broadcasts_S10x1_S10x512 : S10x1.Broadcasts S10x512
  inb_S1x10x512_S1x10x512_0_0_0 : ∀ a, (![0, 0, 0] : Fin 3 → Nat) a + S1x10x512.size a ≤ S1x10x512.size a
  h_S1x10x512 : 0 < S1x10x512.numel
  shapeCasts_S1x10x512_S10x512 : S1x10x512.ShapeCasts S10x512
  shapeCasts_S10x512_S1x10x512 : S10x512.ShapeCasts S1x10x512
  shapeCasts_S16x10x512_S16x5120 : S16x10x512.ShapeCasts S16x5120
  dot_S1024x12_S1024x512_S12x512_0_0_1_1_n_n_wf : DotDims.WF S1024x12 S1024x512 S12x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x12.size a ≤ S16x1024x12.size a
  hwx0_1 : ∀ i : grid0.Coords, EltTy.bits .f32 = 32 ∨ (Rect.block (s := S16x1024x12) S1x1024x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x512.size a ≤ S12x512.size a
  hwx0_2 : ∀ i : grid0.Coords, EltTy.bits .f32 = 32 ∨ (Rect.block (s := S12x512) S12x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x512.size a ≤ S16x10x512.size a
  hwx0_3 : ∀ i : grid0.Coords, EltTy.bits .f32 = 32 ∨ (Rect.block (s := S16x10x512) S1x10x512.size (cc0_transform_3 i) (hinb0_3 i)).WholeWords (EltTy.packing .f32)

variable [Facts₀]

def dot_S1024x12_S1024x512_S12x512_0_0_1_1_n_n : DotDims S1024x12 S1024x512 S12x512 where
  lhsContracting := [0]
  rhsContracting := [0]
  lhsNonContracting := [1]
  rhsNonContracting := [1]
  lhsBatch := []
  rhsBatch := []
  wf := dot_S1024x12_S1024x512_S12x512_0_0_1_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x10x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x16x64x512 : Shape := ⟨4, ![16, 16, 64, 512]⟩
abbrev S16x16x64x12 : Shape := ⟨4, ![16, 16, 64, 12]⟩
abbrev S12x512 : Shape := ⟨2, ![12, 512]⟩
abbrev S_ : Shape := ⟨0, ![]⟩
abbrev S16x16x64 : Shape := ⟨3, ![16, 16, 64]⟩
abbrev S16x16x64x1 : Shape := ⟨4, ![16, 16, 64, 1]⟩
abbrev S16x1024x12 : Shape := ⟨3, ![16, 1024, 12]⟩
abbrev S16x1024x512 : Shape := ⟨3, ![16, 1024, 512]⟩
abbrev S16x12x512 : Shape := ⟨3, ![16, 12, 512]⟩
abbrev S16x12 : Shape := ⟨2, ![16, 12]⟩
abbrev S16x12x1 : Shape := ⟨3, ![16, 12, 1]⟩
abbrev S1x12x512 : Shape := ⟨3, ![1, 12, 512]⟩
abbrev S16x10x512 : Shape := ⟨3, ![16, 10, 512]⟩
abbrev S16x10 : Shape := ⟨2, ![16, 10]⟩
abbrev S16x10x1 : Shape := ⟨3, ![16, 10, 1]⟩
abbrev S16x5120 : Shape := ⟨2, ![16, 5120]⟩

abbrev nBuf : Space → Nat
  | .hbm => 40
  | .vmem => 0
  | .smem => 0
  | _ => 0

abbrev bufTy : (tb : Table) → Fin (tcTables nBuf tb) → BufTy
  | .hbm, ⟨0, _⟩ => ⟨S16x16x64x512, .f32⟩
  | .hbm, ⟨1, _⟩ => ⟨S16x16x64x12, .f32⟩
  | .hbm, ⟨2, _⟩ => ⟨S12x512, .f32⟩
  | .hbm, ⟨3, _⟩ => ⟨S_, .f32⟩
  | .hbm, ⟨4, _⟩ => ⟨S16x16x64, .f32⟩
  | .hbm, ⟨5, _⟩ => ⟨S_, .f32⟩
  | .hbm, ⟨6, _⟩ => ⟨S16x16x64, .f32⟩
  | .hbm, ⟨7, _⟩ => ⟨S16x16x64, .f32⟩
  | .hbm, ⟨8, _⟩ => ⟨S16x16x64x1, .f32⟩
  | .hbm, ⟨9, _⟩ => ⟨S16x16x64x12, .f32⟩
  | .hbm, ⟨10, _⟩ => ⟨S16x16x64x12, .f32⟩
  | .hbm, ⟨11, _⟩ => ⟨S16x16x64x12, .f32⟩
  | .hbm, ⟨12, _⟩ => ⟨S_, .f32⟩
  | .hbm, ⟨13, _⟩ => ⟨S16x16x64, .f32⟩
  | .hbm, ⟨14, _⟩ => ⟨S16x16x64x1, .f32⟩
  | .hbm, ⟨15, _⟩ => ⟨S16x16x64x12, .f32⟩
  | .hbm, ⟨16, _⟩ => ⟨S16x16x64x12, .f32⟩
  | .hbm, ⟨17, _⟩ => ⟨S16x1024x12, .f32⟩
  | .hbm, ⟨18, _⟩ => ⟨S16x1024x512, .f32⟩
  | .hbm, ⟨19, _⟩ => ⟨S16x12x512, .f32⟩
  | .hbm, ⟨20, _⟩ => ⟨S_, .f32⟩
  | .hbm, ⟨21, _⟩ => ⟨S16x12, .f32⟩
  | .hbm, ⟨22, _⟩ => ⟨S16x12x1, .f32⟩
  | .hbm, ⟨23, _⟩ => ⟨S1x12x512, .f32⟩
  | .hbm, ⟨24, _⟩ => ⟨S16x12x512, .f32⟩
  | .hbm, ⟨25, _⟩ => ⟨S16x12x512, .f32⟩
  | .hbm, ⟨26, _⟩ => ⟨S16x12x512, .f32⟩
  | .hbm, ⟨27, _⟩ => ⟨S16x12x512, .f32⟩
  | .hbm, ⟨28, _⟩ => ⟨S16x10x512, .f32⟩
  | .hbm, ⟨29, _⟩ => ⟨S16x10x512, .f32⟩
  | .hbm, ⟨30, _⟩ => ⟨S_, .f32⟩
  | .hbm, ⟨31, _⟩ => ⟨S16x10, .f32⟩
  | .hbm, ⟨32, _⟩ => ⟨S16x10x1, .f32⟩
  | .hbm, ⟨33, _⟩ => ⟨S_, .f32⟩
  | .hbm, ⟨34, _⟩ => ⟨S16x10x1, .f32⟩
  | .hbm, ⟨35, _⟩ => ⟨S16x10x1, .f32⟩
  | .hbm, ⟨36, _⟩ => ⟨S16x10x1, .f32⟩
  | .hbm, ⟨37, _⟩ => ⟨S16x10x512, .f32⟩
  | .hbm, ⟨38, _⟩ => ⟨S16x10x512, .f32⟩
  | .hbm, ⟨39, _⟩ => ⟨S16x5120, .f32⟩
  | _, _ => ⟨S16x16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  reducesTo_S16x16x64x12_S16x16x64_d3 : S16x16x64x12.ReducesTo [3] S16x16x64
  h_S_ : 0 < S_.numel
  bcast_S_S16x16x64 : S_.BroadcastsInDim S16x16x64 (![] : Fin 0 → Fin S16x16x64.rank)
  bcast_S16x16x64_S16x16x64x1_0_1_2 : S16x16x64.BroadcastsInDim S16x16x64x1 (![0, 1, 2] : Fin 3 → Fin S16x16x64x1.rank)
  bcast_S16x16x64x1_S16x16x64x12_0_1_2_3 : S16x16x64x1.BroadcastsInDim S16x16x64x12 (![0, 1, 2, 3] : Fin 4 → Fin S16x16x64x12.rank)
  shapeCasts_S16x16x64x12_S16x1024x12 : S16x16x64x12.ShapeCasts S16x1024x12
  shapeCasts_S16x16x64x512_S16x1024x512 : S16x16x64x512.ShapeCasts S16x1024x512
  reducesTo_S16x1024x12_S16x12_d1 : S16x1024x12.ReducesTo [1] S16x12
  bcast_S16x12_S16x12x1_0_1 : S16x12.BroadcastsInDim S16x12x1 (![0, 1] : Fin 2 → Fin S16x12x1.rank)
  bcast_S12x512_S1x12x512_1_2 : S12x512.BroadcastsInDim S1x12x512 (![1, 2] : Fin 2 → Fin S1x12x512.rank)
  bcast_S16x12x1_S16x12x512_0_1_2 : S16x12x1.BroadcastsInDim S16x12x512 (![0, 1, 2] : Fin 3 → Fin S16x12x512.rank)
  bcast_S1x12x512_S16x12x512_0_1_2 : S1x12x512.BroadcastsInDim S16x12x512 (![0, 1, 2] : Fin 3 → Fin S16x12x512.rank)
  slices_S16x12x512_S16x10x512_0_0_0 : S16x12x512.Slices ![0, 0, 0] S16x10x512
  reducesTo_S16x10x512_S16x10_d2 : S16x10x512.ReducesTo [2] S16x10
  bcast_S16x10_S16x10x1_0_1 : S16x10.BroadcastsInDim S16x10x1 (![0, 1] : Fin 2 → Fin S16x10x1.rank)
  bcast_S_S16x10x1 : S_.BroadcastsInDim S16x10x1 (![] : Fin 0 → Fin S16x10x1.rank)
  bcast_S16x10x1_S16x10x512_0_1_2 : S16x10x1.BroadcastsInDim S16x10x512 (![0, 1, 2] : Fin 3 → Fin S16x10x512.rank)
  shapeCasts_S16x10x512_S16x5120 : S16x10x512.ShapeCasts S16x5120
  dot_S16x1024x12_S16x1024x512_S16x12x512_1_1_2_2_0_0_wf : DotDims.WF S16x1024x12 S16x1024x512 S16x12x512 [1] [1] [2] [2] [0] [0]

variable [Facts₀]

def dot_S16x1024x12_S16x1024x512_S16x12x512_1_1_2_2_0_0 : DotDims S16x1024x12 S16x1024x512 S16x12x512 where
  lhsContracting := [1]
  rhsContracting := [1]
  lhsNonContracting := [2]
  rhsNonContracting := [2]
  lhsBatch := [0]
  rhsBatch := [0]
  wf := dot_S16x1024x12_S16x1024x512_S16x12x512_1_1_2_2_0_0_wf

class Facts : Prop extends Facts₀ where

variable [Facts]
-- ==== Proof.Spec.lean ====
/-
  Softmax-weighted residual pooling with an L2 normalisation, on the extended reals.

  For one batch entry: 1024 positions s, each with twelve scores and 512 features, and twelve centres of 512 features.
    * rowMax f      = max(-∞, max over the twelve scores of f, taken from -∞);
    * expShift f k  = exp(f k - rowMax f);
    * weight f k    = expShift f k / Σ_j expShift f j                       (the softmax weight of centre k at one position);
    * resid k d     = Σ_s weight(sc s) k · ft s d  -  (Σ_s weight(sc s) k) · cl k d;
    * pooled k d    = resid k d · rsqrt(max(Σ_e resid k e · resid k e, floorSq)), for the first ten centres only.
  The whole result, for arrays of shapes [16,16,64,512], [16,16,64,12] and [12,512]: batch entry b reads position
  s = 64·h + w at (b, h, w, ·).
-/
import Idealize.ShloMosaic.PureOps.Ideal
import Idealize.ShloMosaic.Lib.ValueIdx

noncomputable section

namespace Cert.SoftPool

open Idealize.ShloMosaic Idealize.ShloMosaic.ValueIdx

/-- -∞, as the f32 pattern both programs write it. -/
abbrev negInf : EReal := Ideal.ofBits .f32 0xFF800000#32
/-- The floor under the sum of squares (the f32 nearest 1e-12), as the pattern both programs write. -/
abbrev floorSq : EReal := Ideal.ofBits .f32 0x2B8CBCCC#32

/-- The largest of twelve scores, taken from -∞, and once more against -∞. -/
def rowMax (f : Fin 12 → EReal) : EReal := max negInf ((Finset.univ : Finset (Fin 12)).fold max negInf f)

/-- exp of a score less the row's largest. -/
def expShift (f : Fin 12 → EReal) (k : Fin 12) : EReal := Ideal.exp (f k - rowMax f)

/-- The softmax weight of centre k among a position's twelve scores. -/
def weight (f : Fin 12 → EReal) (k : Fin 12) : EReal := Ideal.div (expShift f k) (∑ j : Fin 12, expShift f j)

/-- The weighted sum of the features less the total weight times the centre. -/
def resid (sc : Fin 1024 → Fin 12 → EReal) (ft : Fin 1024 → Fin 512 → EReal) (cl : Fin 12 → Fin 512 → EReal)
    (k : Fin 12) (d : Fin 512) : EReal :=
  (∑ s : Fin 1024, weight (sc s) k * ft s d) - (∑ s : Fin 1024, weight (sc s) k) * cl k d

/-- One of the first ten centres, as one of the twelve. -/
def up (k : Fin 10) : Fin 12 := ⟨k.val, by omega⟩

/-- A row scaled by the reciprocal root of its floored sum of squares. -/
def unitRow (r : Fin 512 → EReal) (d : Fin 512) : EReal :=
  r d * Ideal.rsqrt (max (∑ e : Fin 512, r e * r e) floorSq)

/-- The normalised residual of one of the first ten centres. -/
def pooled (sc : Fin 1024 → Fin 12 → EReal) (ft : Fin 1024 → Fin 512 → EReal) (cl : Fin 12 → Fin 512 → EReal)
    (k : Fin 10) (d : Fin 512) : EReal :=
  unitRow (fun e => resid sc ft cl (up k) e) d

/-- Position s = 64·h + w: its h, -/
def hi (s : Fin 1024) : Fin 16 := ⟨s.val / 64, by omega⟩
/-- and its w. -/
def lo (s : Fin 1024) : Fin 64 := ⟨s.val % 64, by omega⟩

/-- The result at batch entry b, centre k, feature d, from the three argument arrays. -/
def result (x0 : (⟨4, ![16, 16, 64, 512]⟩ : Shape).Idx → EReal) (x1 : (⟨4, ![16, 16, 64, 12]⟩ : Shape).Idx → EReal)
    (x2 : (⟨2, ![12, 512]⟩ : Shape).Idx → EReal) (b : Fin 16) (k : Fin 10) (d : Fin 512) : EReal :=
  pooled (fun s j => x1 (ix4 b (hi s) (lo s) j)) (fun s e => x0 (ix4 b (hi s) (lo s) e)) (fun j e => x2 (ix2 j e)) k d

/-- The result as a [16,10,512] array. -/
def resultArr (x0 : (⟨4, ![16, 16, 64, 512]⟩ : Shape).Idx → EReal) (x1 : (⟨4, ![16, 16, 64, 12]⟩ : Shape).Idx → EReal)
    (x2 : (⟨2, ![12, 512]⟩ : Shape).Idx → EReal) : (⟨3, ![16, 10, 512]⟩ : Shape).Idx → EReal :=
  fun i => result x0 x1 x2 ⟨(i 0).val, (i 0).isLt⟩ ⟨(i 1).val, (i 1).isLt⟩ ⟨(i 2).val, (i 2).isLt⟩

theorem resultArr_ix3 (x0 : (⟨4, ![16, 16, 64, 512]⟩ : Shape).Idx → EReal) (x1 : (⟨4, ![16, 16, 64, 12]⟩ : Shape).Idx → EReal)
    (x2 : (⟨2, ![12, 512]⟩ : Shape).Idx → EReal) (b : Fin 16) (k : Fin 10) (d : Fin 512) :
    resultArr x0 x1 x2 (ix3 b k d) = result x0 x1 x2 b k d := rfl

end Cert.SoftPool

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Body.lean ====
/-
  What the kernel body stores for one batch entry, index by index, on the extended reals.

  The body's value is a chain of five stages over its three loaded blocks (the 1024×12 scores, the 1024×512 features,
  the 12×512 centres): the row maximum, the shifted exponentials, the softmax weights, the residual (a contraction
  over the 1024 positions less the column sums of the weights times the centres), and the normalisation of the first
  ten rows. Each stage is read at an index; composed, the stored block at (0, k, d) is `pooled` of the blocks.
-/
import proofs.«154812_j42640435314929_1_alg».proof.Proof.Gen.KernelIdeal.Skeleton
import proofs.«154812_j42640435314929_1_alg».proof.Proof.Spec
import proofs.«154812_j42640435314929_1_alg».proof.Proof.LibAxisFold
import proofs.«154812_j42640435314929_1_alg».proof.Proof.LibKeepdims
import Idealize.ShloMosaic.Lib.ValueLayout
import Idealize.ShloMosaic.PureOps.Ideal.Laws

noncomputable section

namespace Cert.SoftPool.Body

open Idealize.ShloMosaic Idealize.ShloMosaic.ValueIdx Cert.KernelIdeal Cert.KernelIdeal.Gen Cert.SoftPool

/-! ## The stages -/

/-- Each position's largest score: the lane maximum from -∞, once more against a splat of -∞. -/
def stMax (v3 : FVec Ideal S1024x12 .f32) : FVec Ideal S1024 .f32 :=
  maximumf (broadcast S1024 (Scalar.ofBits .f32 0xFF800000#32))
    (multiReduction .maximumf [1] S1024 v3 0xFF800000#32 reduces_S1024x12_S1024 (.inl rfl) rfl)

/-- exp of each score less its position's largest. -/
def stExp (v3 : FVec Ideal S1024x12 .f32) : FVec Ideal S1024x12 .f32 :=
  exp (subf v3 (broadcastTo S1024x12 (shapeCast S1024x1 (stMax v3) shapeCasts_S1024_S1024x1) broadcasts_S1024x1_S1024x12))

/-- The softmax weights: each exponential over its position's sum. -/
def stWeight (v3 : FVec Ideal S1024x12 .f32) : FVec Ideal S1024x12 .f32 :=
  divf (stExp v3) (broadcastTo S1024x12 (shapeCast S1024x1
    (multiReduction .add [1] S1024 (stExp v3) 0x00000000#32 reduces_S1024x12_S1024 (.inl rfl) rfl) shapeCasts_S1024_S1024x1)
    broadcasts_S1024x1_S1024x12)

/-- The contraction of weights and features over the positions, less the weights' column sums times the centres. -/
def stResid (v1 : FVec Ideal S1024x512 .f32) (v3 : FVec Ideal S1024x12 .f32) (v4 : FVec Ideal S12x512 .f32) : FVec Ideal S12x512 .f32 :=
  subf (matmul dot_S1024x12_S1024x512_S12x512_0_0_1_1_n_n none (truncf .bf16 (stWeight v3) bitsLt_bf16_f32) (truncf .bf16 v1 bitsLt_bf16_f32)
      (constant S12x512 .f32 0x00000000#32))
    (mulf (broadcastTo S12x512 (shapeCast S12x1
      (multiReduction .add [0] S12 (stWeight v3) 0x00000000#32 reduces_S1024x12_S12 (.inl rfl) rfl) shapeCasts_S12_S12x1)
      broadcasts_S12x1_S12x512) v4)

/-- Each of ten rows times the reciprocal root of its floored sum of squares. -/
def stUnit (v24 : FVec Ideal S10x512 .f32) : FVec Ideal S10x512 .f32 :=
  mulf v24 (broadcastTo S10x512 (rsqrt (maximumf (shapeCast S10x1
    (multiReduction .add [1] S10 (mulf v24 v24) 0x00000000#32 reduces_S10x512_S10 (.inl rfl) rfl) shapeCasts_S10_S10x1)
    (broadcast S10x1 (Scalar.ofBits .f32 0x2B8CBCCC#32)))) broadcasts_S10x1_S10x512)

/-- The stored value is the chain of the stages. -/
theorem pay_eq_stages (v0 : Vec Ideal S1x1024x512 .f32) (v2 : Vec Ideal S1x1024x12 .f32) (v4 : Vec Ideal S12x512 .f32) :
    k0_pay1 (F := Ideal) v0 v2 v4
      = shapeCast S1x10x512 (stUnit (extractStridedSlice S10x512 ![0, 0]
          (stResid (shapeCast S1024x512 v0 shapeCasts_S1x1024x512_S1024x512) (shapeCast S1024x12 v2 shapeCasts_S1x1024x12_S1024x12) v4)
          slices_S12x512_o0_0_S10x512)) shapeCasts_S10x512_S1x10x512 := rfl

/-! ## Each stage at an index -/

theorem stMax_apply (v3 : FVec Ideal S1024x12 .f32) (s : Fin 1024) :
    stMax v3 (ix1 s) = rowMax (fun k => v3 (ix2 s k)) :=
  congrArg (max negInf) (AxisFold.max_second_apply v3 0xFF800000#32 reduces_S1024x12_S1024 (.inl rfl) rfl s)

theorem stExp_apply (v3 : FVec Ideal S1024x12 .f32) (s : Fin 1024) (k : Fin 12) :
    stExp v3 (ix2 s k) = expShift (fun j => v3 (ix2 s j)) k := by
  show Ideal.exp (v3 (ix2 s k) - broadcastTo S1024x12 (shapeCast S1024x1 (stMax v3) shapeCasts_S1024_S1024x1) broadcasts_S1024x1_S1024x12 (ix2 s k)) = _
  rw [Keepdims.broadcastTo_a1_ab_apply, Keepdims.shapeCast_a_a1_apply, stMax_apply]
  rfl

theorem stWeight_apply (v3 : FVec Ideal S1024x12 .f32) (s : Fin 1024) (k : Fin 12) :
    stWeight v3 (ix2 s k) = weight (fun j => v3 (ix2 s j)) k := by
  show Ideal.div (stExp v3 (ix2 s k)) (broadcastTo S1024x12 (shapeCast S1024x1
    (multiReduction .add [1] S1024 (stExp v3) 0x00000000#32 reduces_S1024x12_S1024 (.inl rfl) rfl) shapeCasts_S1024_S1024x1)
    broadcasts_S1024x1_S1024x12 (ix2 s k)) = _
  rw [Keepdims.broadcastTo_a1_ab_apply, Keepdims.shapeCast_a_a1_apply,
    AxisFold.sum_second_apply (stExp v3) reduces_S1024x12_S1024 (.inl rfl) rfl s, stExp_apply]
  unfold weight
  exact congrArg (Ideal.div _) (Finset.sum_congr rfl fun j _ => stExp_apply v3 s j)

/-- The kernel's contraction record: both operands contracted over their first axis (the positions). -/
abbrev posDot : DotDims S1024x12 S1024x512 S12x512 := dot_S1024x12_S1024x512_S12x512_0_0_1_1_n_n

/-- The left operand's free axis reads the output's row, -/
theorem posDot_lhs_free (i : S12x512.Idx) (q : posDot.contr.Idx) : (posDot.lhsIdx i q 1).val = (i 0).val := by
  unfold DotDims.lhsIdx
  rw [dif_neg (show ¬(1 : Fin S1024x12.rank) ∈ posDot.lhsBatch by decide),
    dif_pos (show (1 : Fin S1024x12.rank) ∈ posDot.lhsNonContracting by decide)]
  rfl
/-- and the right operand's free axis the output's column. -/
theorem posDot_rhs_free (i : S12x512.Idx) (q : posDot.contr.Idx) : (posDot.rhsIdx i q 1).val = (i 1).val := by
  unfold DotDims.rhsIdx
  rw [dif_neg (show ¬(1 : Fin S1024x512.rank) ∈ posDot.rhsBatch by decide),
    dif_pos (show (1 : Fin S1024x512.rank) ∈ posDot.rhsNonContracting by decide)]
  rfl

/-- The matrix unit's product into the zero accumulator, at (k, d): the sum over the positions s of W(s, k) · X(s, d). -/
theorem contraction_apply (W : FVec Ideal S1024x12 .bf16) (X : FVec Ideal S1024x512 .bf16) (k : Fin 12) (d : Fin 512) :
    matmul posDot none W X (constant (F := Ideal) S12x512 .f32 0x00000000#32) (ix2 k d)
      = ∑ s : Fin 1024, W (ix2 s k) * X (ix2 s d) := by
  simp only [matmul]
  rw [Ideal.matmul_constant_zero_apply, ← Equiv.sum_comp (contrEquiv1 posDot 1024 rfl rfl).symm]
  refine Finset.sum_congr rfl fun s _ => ?_
  have hk := contrEquiv1_symm_val posDot 1024 rfl rfl s
  have el : posDot.lhsIdx (ix2 k d) ((contrEquiv1 posDot 1024 rfl rfl).symm s) = ix2 s k := funext fun a => Fin.ext (by
    match a with
    | ⟨0, _⟩ => exact (posDot.lhsIdx_val_of_single rfl _ _).trans hk
    | ⟨1, _⟩ => exact posDot_lhs_free _ _)
  have er : posDot.rhsIdx (ix2 k d) ((contrEquiv1 posDot 1024 rfl rfl).symm s) = ix2 s d := funext fun a => Fin.ext (by
    match a with
    | ⟨0, _⟩ => exact (posDot.rhsIdx_val_of_single rfl _ _).trans hk
    | ⟨1, _⟩ => exact posDot_rhs_free _ _)
  rw [el, er]

theorem stResid_apply (v1 : FVec Ideal S1024x512 .f32) (v3 : FVec Ideal S1024x12 .f32) (v4 : FVec Ideal S12x512 .f32)
    (k : Fin 12) (d : Fin 512) :
    stResid v1 v3 v4 (ix2 k d) = resid (fun s j => v3 (ix2 s j)) (fun s e => v1 (ix2 s e)) (fun j e => v4 (ix2 j e)) k d := by
  have h1 := contraction_apply (truncf .bf16 (stWeight v3) bitsLt_bf16_f32) (truncf .bf16 v1 bitsLt_bf16_f32) k d
  have h2 : broadcastTo S12x512 (shapeCast S12x1
      (multiReduction .add [0] S12 (stWeight v3) 0x00000000#32 reduces_S1024x12_S12 (.inl rfl) rfl) shapeCasts_S12_S12x1)
      broadcasts_S12x1_S12x512 (ix2 k d) = ∑ s : Fin 1024, stWeight v3 (ix2 s k) := by
    rw [Keepdims.broadcastTo_a1_ab_apply, Keepdims.shapeCast_a_a1_apply]
    exact AxisFold.sum_first_apply (stWeight v3) reduces_S1024x12_S12 (.inl rfl) rfl k
  show matmul posDot none (truncf .bf16 (stWeight v3) bitsLt_bf16_f32) (truncf .bf16 v1 bitsLt_bf16_f32)
      (constant (F := Ideal) S12x512 .f32 0x00000000#32) (ix2 k d)
    - broadcastTo S12x512 (shapeCast S12x1
      (multiReduction .add [0] S12 (stWeight v3) 0x00000000#32 reduces_S1024x12_S12 (.inl rfl) rfl) shapeCasts_S12_S12x1)
      broadcasts_S12x1_S12x512 (ix2 k d) * v4 (ix2 k d) = _
  rw [h1, h2]
  unfold resid
  refine congrArg₂ (· - ·) (Finset.sum_congr rfl fun s _ => ?_)
    (congrArg (· * v4 (ix2 k d)) (Finset.sum_congr rfl fun s _ => stWeight_apply v3 s k))
  exact congrArg (· * v1 (ix2 s d)) (stWeight_apply v3 s k)

theorem stUnit_apply (v24 : FVec Ideal S10x512 .f32) (k : Fin 10) (d : Fin 512) :
    stUnit v24 (ix2 k d) = unitRow (fun e => v24 (ix2 k e)) d := by
  show v24 (ix2 k d) * broadcastTo S10x512 (rsqrt (maximumf (shapeCast S10x1
    (multiReduction .add [1] S10 (mulf v24 v24) 0x00000000#32 reduces_S10x512_S10 (.inl rfl) rfl) shapeCasts_S10_S10x1)
    (broadcast S10x1 (Scalar.ofBits .f32 0x2B8CBCCC#32)))) broadcasts_S10x1_S10x512 (ix2 k d) = _
  rw [Keepdims.broadcastTo_a1_ab_apply]
  show v24 (ix2 k d) * Ideal.rsqrt (max (shapeCast S10x1
    (multiReduction .add [1] S10 (mulf v24 v24) 0x00000000#32 reduces_S10x512_S10 (.inl rfl) rfl) shapeCasts_S10_S10x1 (ix2 k (0 : Fin 1))) floorSq) = _
  rw [Keepdims.shapeCast_a_a1_apply, AxisFold.sum_second_apply (mulf v24 v24) reduces_S10x512_S10 (.inl rfl) rfl k]
  rfl

/-! ## The stored block at an index -/

/-- The block the body stores, at (0, k, d), is `pooled` of the three loaded blocks. -/
theorem pay_apply (v0 : Vec Ideal S1x1024x512 .f32) (v2 : Vec Ideal S1x1024x12 .f32) (v4 : Vec Ideal S12x512 .f32)
    (u : Fin 1) (k : Fin 10) (d : Fin 512) :
    k0_pay1 (F := Ideal) v0 v2 v4 (ix3 u k d)
      = pooled (fun s j => v2 (ix3 (0 : Fin 1) s j)) (fun s e => v0 (ix3 (0 : Fin 1) s e)) (fun j e => v4 (ix2 j e)) k d := by
  have e2 : (fun (s : Fin 1024) (j : Fin 12) => shapeCast S1024x12 v2 shapeCasts_S1x1024x12_S1024x12 (ix2 s j))
      = fun s j => v2 (ix3 (0 : Fin 1) s j) :=
    funext fun s => funext fun j => shapeCast_1ab_ab_apply v2 shapeCasts_S1x1024x12_S1024x12 s j
  have e0 : (fun (s : Fin 1024) (e : Fin 512) => shapeCast S1024x512 v0 shapeCasts_S1x1024x512_S1024x512 (ix2 s e))
      = fun s e => v0 (ix3 (0 : Fin 1) s e) :=
    funext fun s => funext fun e => shapeCast_1ab_ab_apply v0 shapeCasts_S1x1024x512_S1024x512 s e
  rw [pay_eq_stages, shapeCast_ab_1ab_apply, stUnit_apply]
  unfold pooled
  refine congrArg (fun r => unitRow r d) (funext fun e => ?_)
  rw [slice2_axis0_apply 0 _ slices_S12x512_o0_0_S10x512 k e (up k) (by show k.val = 0 + k.val; omega), stResid_apply, e2, e0]

end Cert.SoftPool.Body

end
-- ==== Proof.KernelValue.lean ====
/-
  What the kernel's program leaves in its result: the specification's [16,10,512] array, flattened to [16,5120].

  The region is entered with the features and scores already merged to [16,1024,·] by the two reshapes before it; grid
  point t stages batch entry t of each (and the whole centres), and writes back batch entry t of the [16,10,512] output.
  So the block written back at point t is the specification's array read through that block; the sixteen blocks cover
  the output; and the one reshape after the region flattens it.
-/
import proofs.«154812_j42640435314929_1_alg».proof.Proof.Gen.KernelIdeal.Frame
import proofs.«154812_j42640435314929_1_alg».proof.Proof.Body
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.SoftPool.Kernel

open Cert.KernelIdeal Cert.KernelIdeal.Gen Cert.SoftPool

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification's array of the three arguments as launched, typed as the output array's contents. -/
abbrev G (c : Dev nD) : Buf (Elt Ideal) ((c : Thread nD τ).loc main_v2) :=
  resultArr (m ((c : Thread nD τ).loc main_arg0)) (m ((c : Thread nD τ).loc main_arg1)) (m ((c : Thread nD τ).loc main_arg2))

/-- The batch entry a grid point works on. -/
def entry (t : Fin cfg0.N) : Fin 16 := ⟨t.val, by have h := t.isLt; have hN : cfg0.N = 16 := N_0; omega⟩

/-- The windows' block indices over the grid: entry t of the merged features, of the merged scores and of the output; the
    centres whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The arrays the region finds -/

/-- The merged features are the first reshape of the features as launched. -/
theorem V_feat (c : Dev nD) : (V m c main_v0 : S16x1024x512.Idx → EReal)
    = shapeCast S16x1024x512 (m ((c : Thread nD τ).loc main_arg0)) shapeCasts_S16x16x64x512_S16x1024x512 := by
  show StableHlo.after hostOps0 (fun b => m (c, b)) (Proc.devRef .tc main_v0) = _
  after_results
  rfl

/-- The merged scores are the second reshape of the scores as launched. -/
theorem V_score (c : Dev nD) : (V m c main_v1 : S16x1024x12.Idx → EReal)
    = shapeCast S16x1024x12 (m ((c : Thread nD τ).loc main_arg1)) shapeCasts_S16x16x64x12_S16x1024x12 := by
  show StableHlo.after hostOps0 (fun b => m (c, b)) (Proc.devRef .tc main_v1) = _
  after_results
  rfl

/-- Merged feature (b, s, e) is feature (b, s / 64, s % 64, e). -/
theorem V_feat_apply (c : Dev nD) (b : Fin 16) (s : Fin 1024) (e : Fin 512) :
    (V m c main_v0 : S16x1024x512.Idx → EReal) (ix3 b s e)
      = (m ((c : Thread nD τ).loc main_arg0) : S16x16x64x512.Idx → EReal) (ix4 b (hi s) (lo s) e) := by
  rw [V_feat]
  exact shapeCast_apply _ shapeCasts_S16x16x64x512_S16x1024x512 _ _ (by
    have hb := b.isLt; have hs := s.isLt; have he := e.isLt
    rw [Shape.rowMajor_val_four, Shape.rowMajor_val_three]
    show ((b.val * 16 + s.val / 64) * 64 + s.val % 64) * 512 + e.val = (b.val * 1024 + s.val) * 512 + e.val
    omega)

/-- Merged score (b, s, j) is score (b, s / 64, s % 64, j). -/
theorem V_score_apply (c : Dev nD) (b : Fin 16) (s : Fin 1024) (j : Fin 12) :
    (V m c main_v1 : S16x1024x12.Idx → EReal) (ix3 b s j)
      = (m ((c : Thread nD τ).loc main_arg1) : S16x16x64x12.Idx → EReal) (ix4 b (hi s) (lo s) j) := by
  rw [V_score]
  exact shapeCast_apply _ shapeCasts_S16x16x64x12_S16x1024x12 _ _ (by
    have hb := b.isLt; have hs := s.isLt; have hj := j.isLt
    rw [Shape.rowMajor_val_four, Shape.rowMajor_val_three]
    show ((b.val * 16 + s.val / 64) * 64 + s.val % 64) * 12 + j.val = (b.val * 1024 + s.val) * 12 + j.val
    omega)

/-! ## The staged blocks -/

/-- The features' block at point t, at (0, s, e): the merged features at (t, s, e). -/
theorem blk_feat (c : Dev nD) (t : Fin cfg0.N) (s : Fin 1024) (e : Fin 512) :
    (iblk m c 0 t : Vec Ideal S1x1024x512 .f32) (ix3 (0 : Fin 1) s e)
      = (m ((c : Thread nD τ).loc main_arg0) : S16x16x64x512.Idx → EReal) (ix4 (entry t) (hi s) (lo s) e) := by
  obtain ⟨e0, e1, e2, -⟩ := idx_facts t
  have h : ((cfg0.win 0).blk t).view.emb (ix3 (0 : Fin 1) s e) = ix3 (entry t) s e := by
    funext a; apply Fin.ext
    match a with
    | ⟨0, _⟩ => show win0_0.index t (0 : Fin 3) * 1 + 1 * 0 = t.val; omega
    | ⟨1, _⟩ => show win0_0.index t (1 : Fin 3) * 1024 + 1 * s.val = s.val; omega
    | ⟨2, _⟩ => show win0_0.index t (2 : Fin 3) * 512 + 1 * e.val = e.val; omega
  show V m c main_v0 (((cfg0.win 0).blk t).view.emb (ix3 (0 : Fin 1) s e)) = _
  rw [h]
  exact V_feat_apply m c (entry t) s e

/-- The scores' block at point t, at (0, s, j): the merged scores at (t, s, j). -/
theorem blk_score (c : Dev nD) (t : Fin cfg0.N) (s : Fin 1024) (j : Fin 12) :
    (iblk m c 1 t : Vec Ideal S1x1024x12 .f32) (ix3 (0 : Fin 1) s j)
      = (m ((c : Thread nD τ).loc main_arg1) : S16x16x64x12.Idx → EReal) (ix4 (entry t) (hi s) (lo s) j) := by
  obtain ⟨-, -, -, e0, e1, e2, -⟩ := idx_facts t
  have h : ((cfg0.win 1).blk t).view.emb (ix3 (0 : Fin 1) s j) = ix3 (entry t) s j := by
    funext a; apply Fin.ext
    match a with
    | ⟨0, _⟩ => show win0_1.index t (0 : Fin 3) * 1 + 1 * 0 = t.val; omega
    | ⟨1, _⟩ => show win0_1.index t (1 : Fin 3) * 1024 + 1 * s.val = s.val; omega
    | ⟨2, _⟩ => show win0_1.index t (2 : Fin 3) * 12 + 1 * j.val = j.val; omega
  show V m c main_v1 (((cfg0.win 1).blk t).view.emb (ix3 (0 : Fin 1) s j)) = _
  rw [h]
  exact V_score_apply m c (entry t) s j

/-- The centres' block at any point is the centres as launched. -/
theorem blk_centre (c : Dev nD) (t : Fin cfg0.N) (j : Fin 12) (e : Fin 512) :
    (iblk m c 2 t : Vec Ideal S12x512 .f32) (ix2 j e)
      = (m ((c : Thread nD τ).loc main_arg2) : S12x512.Idx → EReal) (ix2 j e) := by
  obtain ⟨-, -, -, -, -, -, e0, e1, -⟩ := idx_facts t
  have h : ((cfg0.win 2).blk t).view.emb (ix2 j e) = ix2 j e := by
    funext a; apply Fin.ext
    match a with
    | ⟨0, _⟩ => show win0_2.index t (0 : Fin 2) * 12 + 1 * j.val = j.val; omega
    | ⟨1, _⟩ => show win0_2.index t (1 : Fin 2) * 512 + 1 * e.val = e.val; omega
  show V m c main_arg2 (((cfg0.win 2).blk t).view.emb (ix2 j e)) = _
  rw [h, V_main_arg2]

/-! ## What a point writes back, and the array after the run -/

/-- What point t writes back is the specification's array read through the output's block at t. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz3]
  simp only [View.ld_unit_zero (S := S1x1024x512) hz3, View.ld_unit_zero (S := S1x1024x12) hz3, View.ld_unit_zero (S := S12x512) hz2]
  funext y
  obtain ⟨u, k, d, rfl⟩ : ∃ (u : Fin 1) (k : Fin 10) (d : Fin 512), y = ix3 u k d := ⟨y 0, y 1, y 2, eq_ix3 y⟩
  obtain ⟨-, -, -, -, -, -, -, -, e0, e1, e2⟩ := idx_facts t
  have h : ((cfg0.win 3).blk t).view.emb (ix3 u k d) = ix3 (entry t) k d := by
    funext a; apply Fin.ext
    have hu : u.val = 0 := by omega
    match a with
    | ⟨0, _⟩ => show win0_3.index t (0 : Fin 3) * 1 + 1 * u.val = t.val; omega
    | ⟨1, _⟩ => show win0_3.index t (1 : Fin 3) * 10 + 1 * k.val = k.val; omega
    | ⟨2, _⟩ => show win0_3.index t (2 : Fin 3) * 512 + 1 * d.val = d.val; omega
  show k0_pay1 (F := Ideal) (iblk m c 0 t) (iblk m c 1 t) (iblk m c 2 t) (ix3 u k d) = G m c (((cfg0.win 3).blk t).view.emb (ix3 u k d))
  rw [h]
  refine (Body.pay_apply (iblk m c 0 t) (iblk m c 1 t) (iblk m c 2 t) u k d).trans ?_
  show _ = pooled _ _ _ k d
  have e1' : (fun (s : Fin 1024) (j : Fin 12) => (iblk m c 1 t : Vec Ideal S1x1024x12 .f32) (ix3 (0 : Fin 1) s j))
      = fun s j => (m ((c : Thread nD τ).loc main_arg1) : S16x16x64x12.Idx → EReal) (ix4 (entry t) (hi s) (lo s) j) :=
    funext fun s => funext fun j => blk_score m c t s j
  have e0' : (fun (s : Fin 1024) (e : Fin 512) => (iblk m c 0 t : Vec Ideal S1x1024x512 .f32) (ix3 (0 : Fin 1) s e))
      = fun s e => (m ((c : Thread nD τ).loc main_arg0) : S16x16x64x512.Idx → EReal) (ix4 (entry t) (hi s) (lo s) e) :=
    funext fun s => funext fun e => blk_feat m c t s e
  have e2' : (fun (j : Fin 12) (e : Fin 512) => (iblk m c 2 t : Vec Ideal S12x512 .f32) (ix2 j e))
      = fun j e => (m ((c : Thread nD τ).loc main_arg2) : S12x512.Idx → EReal) (ix2 j e) :=
    funext fun j => funext fun e => blk_centre m c t j e
  rw [e1', e0', e2']

/-- An index of the output is in point t's block iff each coordinate is in the block's range on its axis. -/
theorem mem_blk (t : Fin cfg0.N) (i : S16x10x512.Idx) :
    i ∈ ((cfg0.win 3).blk t).view.set ↔ ∀ a : Fin 3, win0_3.index t a * S1x10x512.size a ≤ (i a).val ∧ (i a).val < win0_3.index t a * S1x10x512.size a + S1x10x512.size a := by
  show i ∈ ((View.whole main_v2).slice (win0_3.rect t)).set ↔ _
  rw [View.set_slice_whole, Rect.mem_set_unit]
  exact Iff.rfl

/-- Every index of the output is in the block of the point that works on its batch entry. -/
theorem cover (i : S16x10x512.Idx) :
    ∃ t : Fin cfg0.N, (cfg0.win 3).flush t = true ∧ i ∈ ((cfg0.win 3).blk t).view.set := by
  have hN : cfg0.N = 16 := N_0
  have h0 : (i 0).val < 16 := (i 0).isLt
  have h1 : (i 1).val < 10 := (i 1).isLt
  have h2 : (i 2).val < 512 := (i 2).isLt
  have ht : (i 0).val < cfg0.N := by omega
  refine ⟨⟨(i 0).val, ht⟩, flush0_3 _, ?_⟩
  rw [mem_blk]
  obtain ⟨-, -, -, -, -, -, -, -, e0, e1, e2⟩ := idx_facts ⟨(i 0).val, ht⟩
  have e0' : win0_3.index ⟨(i 0).val, ht⟩ (0 : Fin 3) = (i 0).val := e0
  intro a
  match a with
  | ⟨0, _⟩ => show win0_3.index ⟨(i 0).val, ht⟩ (0 : Fin 3) * 1 ≤ (i 0).val ∧ (i 0).val < win0_3.index ⟨(i 0).val, ht⟩ (0 : Fin 3) * 1 + 1; omega
  | ⟨1, _⟩ => show win0_3.index ⟨(i 0).val, ht⟩ (1 : Fin 3) * 10 ≤ (i 1).val ∧ (i 1).val < win0_3.index ⟨(i 0).val, ht⟩ (1 : Fin 3) * 10 + 10; omega
  | ⟨2, _⟩ => show win0_3.index ⟨(i 0).val, ht⟩ (2 : Fin 3) * 512 ≤ (i 2).val ∧ (i 2).val < win0_3.index ⟨(i 0).val, ht⟩ (2 : Fin 3) * 512 + 512; omega

/-- The output array after the run is the specification's array. -/
theorem final (c : Dev nD) : (dats m 0 c).arrAt 3 cfg0.N = G m c :=
  (dats m 0 c).arrAt_eq_of_cover 3 (G m c) (fun t _ => flushed_eq m c t) cover

/-! ## The reshape after the region, and the run -/

/-- The program's result: the output array flattened. -/
theorem tail_eq (c : Dev nD) :
    Pipeline.afterTail₀ cfgs (dats m) 0 (V0 m) [hostOps1] c main_v3
      = shapeCast S16x5120 (G m c) shapeCasts_S16x10x512_S16x5120 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = G m c :=
    (Pipeline.withArrays_arr spec0 launch0.win.arr_inj c _ _ 3).trans (final m c)
  rw [hw]
  rfl

/-- Every weakly fair execution of the kernel's program terminates with its result at the specification's array
    flattened, and its arguments as launched. -/
theorem run : θ_run defs (onTc (τ := τ) (main (F := Ideal))) ⟨m, fun _ => 0, ρ⟩ fun r => ∀ c : Dev nD,
      r.2.mem ((c.tc : Thread nD τ).loc main_v3) = shapeCast S16x5120 (G m c) shapeCasts_S16x10x512_S16x5120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.SoftPool.Kernel

end
-- ==== Proof.RefSoftmax.lean ====
/-
  The reference's softmax stages read at an index.

  The reference takes the softmax over the last axis of the [16,16,64,12] scores and only then merges the two middle
  axes into the 1024 positions; so at (b, s, k) of the merged array stands the weight of centre k among the twelve
  scores at (b, s / 64, s % 64, ·). The merged features at (b, s, e) are the features at (b, s / 64, s % 64, e).
-/
import proofs.«154812_j42640435314929_1_alg».proof.Proof.Gen.ReferenceIdeal.Read
import proofs.«154812_j42640435314929_1_alg».proof.Proof.Spec
import Idealize.ShloMosaic.PureOps.Ideal.Laws

noncomputable section

namespace Cert.SoftPool.Ref

open Idealize.ShloMosaic Idealize.ShloMosaic.ValueIdx Cert.ReferenceIdeal Cert.ReferenceIdeal.Gen Cert.ReferenceIdeal.Read Cert.SoftPool

variable (x0 : (⟨S16x16x64x512, .f32⟩ : BufTy).Contents (Elt Ideal)) (x1 : (⟨S16x16x64x12, .f32⟩ : BufTy).Contents (Elt Ideal))

/-- The twelve scores at (b, h, w). -/
abbrev row (b : Fin 16) (h : Fin 16) (w : Fin 64) : Fin 12 → EReal := fun j => x1 (ix4 b h w j)

/-- The host's maximum over the last axis from -∞, at (b, h, w): the fold of max over the twelve scores there. -/
theorem v0_apply (b : Fin 16) (h : Fin 16) (w : Fin 64) :
    val_main_v0 (F := Ideal) x1 (ix3 b h w) = (Finset.univ : Finset (Fin 12)).fold max negInf (row x1 b h w) := by
  have hR : S16x16x64x12.Reduces [3] S16x16x64 := by decide
  unfold val_main_v0
  refine (Host.reduce_eq_fold_single (FloatOps.maximumf (F := Ideal) (φ := .f32)) x1 (val_main_cst (F := Ideal))
    reducesTo_S16x16x64x12_S16x16x64_d3 hR h_S_ (ix3 b h w)).trans ?_
  have e : (x1 ∘ hR.lift (ix3 b h w)) = row x1 b h w :=
    funext fun k => congrArg x1 (funext fun a => Fin.ext (by
      match a with
      | ⟨0, _⟩ => rfl
      | ⟨1, _⟩ => rfl
      | ⟨2, _⟩ => rfl
      | ⟨3, _⟩ => rfl))
  rw [e]
  rfl

theorem v2_apply (b : Fin 16) (h : Fin 16) (w : Fin 64) :
    val_main_v2 (F := Ideal) x1 (ix3 b h w) = rowMax (row x1 b h w) := by
  rw [val_main_v2_apply, v0_apply, val_main_v1_apply]
  rfl

theorem v6_apply (b : Fin 16) (h : Fin 16) (w : Fin 64) (k : Fin 12) :
    val_main_v6 (F := Ideal) x1 (ix4 b h w k) = expShift (row x1 b h w) k := by
  have e : idx_main_v3 (idx_main_v4 (ix4 b h w k)) = ix3 b h w := funext fun a => Fin.ext (by
    match a with
    | ⟨0, _⟩ => rfl
    | ⟨1, _⟩ => rfl
    | ⟨2, _⟩ => rfl)
  rw [val_main_v6_apply, val_main_v5_apply, val_main_v4_apply, val_main_v3_apply, e, v2_apply]
  rfl

theorem v9_apply (b : Fin 16) (h : Fin 16) (w : Fin 64) (k : Fin 12) :
    val_main_v9 (F := Ideal) x1 (ix4 b h w k) = ∑ j : Fin 12, expShift (row x1 b h w) j := by
  have e : idx_main_v8 (idx_main_v9 (ix4 b h w k)) = ix3 b h w := funext fun a => Fin.ext (by
    match a with
    | ⟨0, _⟩ => rfl
    | ⟨1, _⟩ => rfl
    | ⟨2, _⟩ => rfl)
  have e7 : ∀ j : Fin 12, idx_main_v7 (ix3 b h w) j = ix4 b h w j := fun j => funext fun a => Fin.ext (by
    match a with
    | ⟨0, _⟩ => rfl
    | ⟨1, _⟩ => rfl
    | ⟨2, _⟩ => rfl
    | ⟨3, _⟩ => rfl)
  rw [val_main_v9_apply, val_main_v8_apply, e, val_main_v7_apply]
  show Ideal.ofBits .f32 0x00000000#32 + _ = _
  rw [Ideal.ofBits_zero_f32, zero_add]
  exact Finset.sum_congr rfl fun j _ => (congrArg (val_main_v6 (F := Ideal) x1) (e7 j)).trans (v6_apply x1 b h w j)

theorem v10_apply (b : Fin 16) (h : Fin 16) (w : Fin 64) (k : Fin 12) :
    val_main_v10 (F := Ideal) x1 (ix4 b h w k) = weight (row x1 b h w) k := by
  rw [val_main_v10_apply, v6_apply, v9_apply]
  rfl

/-- The merged weights at (b, s, k). -/
theorem v11_apply (b : Fin 16) (s : Fin 1024) (k : Fin 12) :
    val_main_v11 (F := Ideal) x1 (ix3 b s k) = weight (row x1 b (hi s) (lo s)) k := by
  have e : idx_main_v11 (ix3 b s k) = ix4 b (hi s) (lo s) k := funext fun a => Fin.ext (by
    have hb := b.isLt; have hs := s.isLt; have hk := k.isLt
    match a with
    | ⟨0, _⟩ => show ((b.val * 1024 + s.val) * 12 + k.val) / 12288 = b.val; omega
    | ⟨1, _⟩ => show ((b.val * 1024 + s.val) * 12 + k.val) / 768 % 16 = s.val / 64; omega
    | ⟨2, _⟩ => show ((b.val * 1024 + s.val) * 12 + k.val) / 12 % 64 = s.val % 64; omega
    | ⟨3, _⟩ => show ((b.val * 1024 + s.val) * 12 + k.val) % 12 = k.val; omega)
  rw [val_main_v11_apply, e, v10_apply]

/-- The merged features at (b, s, d). -/
theorem v12_apply (b : Fin 16) (s : Fin 1024) (d : Fin 512) :
    val_main_v12 (F := Ideal) x0 (ix3 b s d) = x0 (ix4 b (hi s) (lo s) d) := by
  have e : idx_main_v12 (ix3 b s d) = ix4 b (hi s) (lo s) d := funext fun a => Fin.ext (by
    have hb := b.isLt; have hs := s.isLt; have hd := d.isLt
    match a with
    | ⟨0, _⟩ => show ((b.val * 1024 + s.val) * 512 + d.val) / 524288 = b.val; omega
    | ⟨1, _⟩ => show ((b.val * 1024 + s.val) * 512 + d.val) / 32768 % 16 = s.val / 64; omega
    | ⟨2, _⟩ => show ((b.val * 1024 + s.val) * 512 + d.val) / 512 % 64 = s.val % 64; omega
    | ⟨3, _⟩ => show ((b.val * 1024 + s.val) * 512 + d.val) % 512 = d.val; omega)
  rw [val_main_v12_apply, e]

end Cert.SoftPool.Ref

end
-- ==== Proof.RefPooled.lean ====
/-
  The reference's result before its last reshape, index by index: at (b, k, d) it is `result` of the three arguments.

  The contraction over the merged positions and the sum of the merged weights read the softmax weights at
  (b, s / 64, s % 64, ·); the residual keeps the first ten of the twelve centres; each kept row is scaled by the
  reciprocal root of its floored sum of squares.
-/
import proofs.«154812_j42640435314929_1_alg».proof.Proof.RefSoftmax

noncomputable section

namespace Cert.SoftPool.Ref

open Idealize.ShloMosaic Idealize.ShloMosaic.ValueIdx Cert.ReferenceIdeal Cert.ReferenceIdeal.Gen Cert.ReferenceIdeal.Read Cert.SoftPool

variable (x0 : (⟨S16x16x64x512, .f32⟩ : BufTy).Contents (Elt Ideal)) (x1 : (⟨S16x16x64x12, .f32⟩ : BufTy).Contents (Elt Ideal))
  (x2 : (⟨S12x512, .f32⟩ : BufTy).Contents (Elt Ideal))

/-- Batch entry b's scores, features by position, and the centres, as the specification takes them. -/
abbrev sc (b : Fin 16) : Fin 1024 → Fin 12 → EReal := fun s j => x1 (ix4 b (hi s) (lo s) j)
abbrev ft (b : Fin 16) : Fin 1024 → Fin 512 → EReal := fun s e => x0 (ix4 b (hi s) (lo s) e)
abbrev cl : Fin 12 → Fin 512 → EReal := fun j e => x2 (ix2 j e)

/-- The batched contraction over the positions. -/
theorem v13_apply (b : Fin 16) (k : Fin 12) (d : Fin 512) :
    val_main_v13 (F := Ideal) x0 x1 (ix3 b k d) = ∑ s : Fin 1024, weight (sc x1 b s) k * ft x0 b s d := by
  rw [val_main_v13_apply]
  refine Finset.sum_congr rfl fun s _ => ?_
  have el : lidx_main_v13 (ix3 b k d) s = ix3 b s k := funext fun a => Fin.ext (by
    match a with
    | ⟨0, _⟩ => rfl
    | ⟨1, _⟩ => rfl
    | ⟨2, _⟩ => rfl)
  have er : ridx_main_v13 (ix3 b k d) s = ix3 b s d := funext fun a => Fin.ext (by
    match a with
    | ⟨0, _⟩ => rfl
    | ⟨1, _⟩ => rfl
    | ⟨2, _⟩ => rfl)
  rw [el, er, v11_apply, v12_apply]

/-- The total weight of centre k over the positions. -/
theorem v14_apply (b : Fin 16) (k : Fin 12) :
    val_main_v14 (F := Ideal) x1 (ix2 b k) = ∑ s : Fin 1024, weight (sc x1 b s) k := by
  rw [val_main_v14_apply]
  show Ideal.ofBits .f32 0x00000000#32 + _ = _
  rw [Ideal.ofBits_zero_f32, zero_add]
  refine Finset.sum_congr rfl fun s _ => ?_
  have e : idx_main_v14 (ix2 b k) s = ix3 b s k := funext fun a => Fin.ext (by
    match a with
    | ⟨0, _⟩ => rfl
    | ⟨1, _⟩ => rfl
    | ⟨2, _⟩ => rfl)
  rw [e, v11_apply]

/-- The residual of all twelve centres. -/
theorem v20_apply (b : Fin 16) (k : Fin 12) (d : Fin 512) :
    val_main_v20 (F := Ideal) x0 x1 x2 (ix3 b k d) = resid (sc x1 b) (ft x0 b) (cl x2) k d := by
  have e15 : idx_main_v15 (idx_main_v17 (ix3 b k d)) = ix2 b k := funext fun a => Fin.ext (by
    match a with
    | ⟨0, _⟩ => rfl
    | ⟨1, _⟩ => rfl)
  have e16 : idx_main_v16 (idx_main_v18 (ix3 b k d)) = ix2 k d := funext fun a => Fin.ext (by
    match a with
    | ⟨0, _⟩ => rfl
    | ⟨1, _⟩ => rfl)
  rw [val_main_v20_apply, val_main_v19_apply, v13_apply, val_main_v17_apply, val_main_v15_apply, e15, v14_apply,
    val_main_v18_apply, val_main_v16_apply, e16]
  rfl

/-- The first ten centres kept. -/
theorem v21_apply (b : Fin 16) (k : Fin 10) (d : Fin 512) :
    val_main_v21 (F := Ideal) x0 x1 x2 (ix3 b k d) = resid (sc x1 b) (ft x0 b) (cl x2) (up k) d := by
  have e : idx_main_v21 (ix3 b k d) = ix3 b (up k) d := funext fun a => Fin.ext (by
    match a with
    | ⟨0, _⟩ => rfl
    | ⟨1, _⟩ => rfl
    | ⟨2, _⟩ => rfl)
  rw [val_main_v21_apply, e, v20_apply]

/-- The normalised rows. -/
theorem v29_apply (b : Fin 16) (k : Fin 10) (d : Fin 512) :
    val_main_v29 (F := Ideal) x0 x1 x2 (ix3 b k d) = result x0 x1 x2 b k d := by
  have e24 : idx_main_v24 (idx_main_v28 (ix3 b k d)) = ix2 b k := funext fun a => Fin.ext (by
    match a with
    | ⟨0, _⟩ => rfl
    | ⟨1, _⟩ => rfl)
  have e23 : ∀ e : Fin 512, idx_main_v23 (ix2 b k) e = ix3 b k e := fun e => funext fun a => Fin.ext (by
    match a with
    | ⟨0, _⟩ => rfl
    | ⟨1, _⟩ => rfl
    | ⟨2, _⟩ => rfl)
  have hsq : val_main_v23 (F := Ideal) x0 x1 x2 (ix2 b k)
      = ∑ e : Fin 512, resid (sc x1 b) (ft x0 b) (cl x2) (up k) e * resid (sc x1 b) (ft x0 b) (cl x2) (up k) e := by
    rw [val_main_v23_apply]
    show Ideal.ofBits .f32 0x00000000#32 + _ = _
    rw [Ideal.ofBits_zero_f32, zero_add]
    refine Finset.sum_congr rfl fun e _ => ?_
    rw [e23 e, val_main_v22_apply, v21_apply]
    rfl
  rw [val_main_v29_apply, v21_apply, val_main_v28_apply, val_main_v27_apply, val_main_v26_apply, val_main_v24_apply, e24, hsq,
    val_main_v25_apply]
  rfl

/-- The reference's result before its last reshape is the specification's array. -/
theorem v29_eq : val_main_v29 (F := Ideal) x0 x1 x2 = resultArr x0 x1 x2 := by
  funext i
  obtain ⟨b, k, d, rfl⟩ : ∃ (b : Fin 16) (k : Fin 10) (d : Fin 512), i = ix3 b k d := ⟨i 0, i 1, i 2, eq_ix3 i⟩
  rw [v29_apply, resultArr_ix3]

end Cert.SoftPool.Ref

end
-- ==== Proof.lean ====
/-
  Softmax-weighted residual pooling of 1024 positions onto twelve centres, the first ten rows L2-normalised: the
  kernel (one grid point per batch entry; softmax, a contraction over the positions on the matrix unit, the centres'
  correction, the normalisation, all inside the body) against the jnp reference (the same operations on whole arrays),
  equal on the extended reals.

  Both programs compute, for batch entry b, centre k < 10 and feature d,
      resid(k, d) · rsqrt(max(Σ_e resid(k, e)², floorSq)),
      resid(k, d) = Σ_s w(s, k) · feat(b, s, d) - (Σ_s w(s, k)) · centre(k, d),
      w(s, ·) = the softmax of the twelve scores at position s,
  with the same operations in the same order at each element; they differ only in layout: the reference takes the
  softmax on the [16,16,64,12] scores before merging the two middle axes, the kernel merges first and works on one
  batch entry's [1024,12] block at a time; a change of float format is the identity on the extended reals, and the
  matrix unit's product into a zero accumulator, the lane sums and the host's contraction and sums are all plain
  finite sums. So no algebraic law is needed and the precondition is never opened: both results are shown equal to one
  specification (Proof/Spec.lean), index by index.

  Proof/Body.lean reads the kernel body's stored block at an index; Proof/KernelValue.lean carries it through the
  grid's blocks, the reshapes before the region and the one after; Proof/RefSoftmax.lean and Proof/RefPooled.lean read
  the reference's operations at an index; here the five claims are assembled behind the witnesses of the programs'
  stated side conditions.
-/
import proofs.«154812_j42640435314929_1_alg».proof.Defs
import proofs.«154812_j42640435314929_1_alg».proof.Proof.Gen.Kernel
import proofs.«154812_j42640435314929_1_alg».proof.Proof.Gen.Kernel.Skeleton
import proofs.«154812_j42640435314929_1_alg».proof.Proof.Gen.Kernel.Launch
import proofs.«154812_j42640435314929_1_alg».proof.Proof.Gen.Kernel.Points
import proofs.«154812_j42640435314929_1_alg».proof.Proof.Gen.Kernel.Frame
import proofs.«154812_j42640435314929_1_alg».proof.Proof.Gen.KernelIdeal
import proofs.«154812_j42640435314929_1_alg».proof.Proof.Gen.KernelIdeal.Skeleton
import proofs.«154812_j42640435314929_1_alg».proof.Proof.Gen.KernelIdeal.Launch
import proofs.«154812_j42640435314929_1_alg».proof.Proof.Gen.KernelIdeal.Points
import proofs.«154812_j42640435314929_1_alg».proof.Proof.Gen.KernelIdeal.Frame
import proofs.«154812_j42640435314929_1_alg».proof.Proof.Gen.ReferenceIdeal
import proofs.«154812_j42640435314929_1_alg».proof.Proof.Gen.ReferenceIdeal.Run
import proofs.«154812_j42640435314929_1_alg».proof.Proof.Gen.ReferenceIdeal.Read
import proofs.«154812_j42640435314929_1_alg».proof.Proof.Gen.Pre_finite_inputs
import proofs.«154812_j42640435314929_1_alg».proof.Proof.KernelValue
import proofs.«154812_j42640435314929_1_alg».proof.Proof.RefPooled
import Idealize.ShloMosaic.Adequacy
import Idealize.ShloMosaic.Init

noncomputable section

namespace Cert.Proof

open Idealize.ShloMosaic Idealize.SL.Sem

/-- The kernel's program as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the three arguments, both programs end with the specification's
    [16,10,512] array flattened to [16,5120]: the kernel's by its blocks, the reference's operation by operation. -/
theorem algebraic : Cert.algebraic_KernelIdeal_ReferenceIdeal := by
  intro m ρ m' ρ' _ hagree
  refine ⟨fun c => shapeCast Cert.KernelIdeal.S16x5120 (Cert.SoftPool.Kernel.G m c)
    Cert.KernelIdeal.Gen.shapeCasts_S16x10x512_S16x5120, Cert.SoftPool.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2]
  unfold Cert.ReferenceIdeal.Read.val_main_v30
  rw [Cert.SoftPool.Ref.v29_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
